-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : FVec F S16x1024x1024 .f32) (main_arg1 : FVec F S16x1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  main_v8
-- ==== Kernel.lean ====
abbrev S16x1024x1024 : Shape := ⟨3, ![16, 1024, 1024]⟩
abbrev S1x256x1024 : Shape := ⟨3, ![1, 256, 1024]⟩
abbrev S1x1024x1024 : Shape := ⟨3, ![1, 1024, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S16x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S256x1024_S256 : S256x1024.Reduces [1] S256
  shapeCasts_S256_S256x1 : S256.ShapeCasts S256x1
  broadcasts_S256x1_S256x1024 : S256x1.Broadcasts S256x1024
  shapeCasts_S256x1024_S1x256x1024 : S256x1024.ShapeCasts S1x256x1024
  bitsLt_bf16_f32 : FTy.bits .bf16 < FTy.bits .f32
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x1024x1024.size a
  hwx0_0 : ∀ i : grid0.Coords, EltTy.bits .f32 = 32 ∨ (Rect.block (s := S16x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S16x1024x1024.size a
  hwx0_2 : ∀ i : grid0.Coords, EltTy.bits .f32 = 32 ∨ (Rect.block (s := S16x1024x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S16x1024x1024.size a
  hwx0_3 : ∀ i : grid0.Coords, EltTy.bits .f32 = 32 ∨ (Rect.block (s := S16x1024x1024) S1x256x1024.size (cc0_transform_3 i) (hinb0_3 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 18
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S_, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S16x1024x1, .f32⟩
  | .hbm, ⟨9, _⟩ => ⟨S16x1024x1024, .f32⟩
  | .hbm, ⟨10, _⟩ => ⟨S16x1024x1024, .f32⟩
  | .hbm, ⟨11, _⟩ => ⟨S16x1024x1024, .f32⟩
  | .hbm, ⟨12, _⟩ => ⟨S_, .f32⟩
  | .hbm, ⟨13, _⟩ => ⟨S16x1024, .f32⟩
  | .hbm, ⟨14, _⟩ => ⟨S16x1024x1, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.AttentionRow.lean ====
import Idealize.ShloMosaic.PureOps.Ideal
import Idealize.ShloMosaic.Lib.ValueIdx

/-!
# One row of dot-product attention over the extended reals

For one query row `q` (1024 features) and a value matrix `v` (1024 rows of 1024 features):

* `score q v s = ∑ h, q h * v s h` — the query's dot product with value row `s`;
* `rowMax q v` — the largest score of the row, as the fold of `max` from `⊥` over the 1024 scores;
* `weight q v s = exp (score q v s - rowMax q v)` — the shifted exponential;
* `rowSum q v = ∑ s, weight q v s`;
* `attn q v s = weight q v s / rowSum q v` — the softmax weight of value row `s`;
* `out q v h = ∑ s, attn q v s * v s h` — the weighted sum of the value rows.

Both programs compute exactly these terms at each (batch, query) row: nothing here needs the entries to be finite,
because the two sides differ only in the order in which a sum or a maximum is taken.

`attnArr` and `outArr` read the two result arrays of shape [16, 1024, 1024] off the two argument arrays: entry
(n, t, ·) is the attention row of query row (n, t) against the value matrix of batch n.
-/

noncomputable section

open scoped BigOperators

namespace Cert.AttentionRow

open Idealize.ShloMosaic Idealize.ShloMosaic.ValueIdx

/-- The query row's dot product with value row `s`. -/
def score (q : Fin 1024 → EReal) (v : Fin 1024 → Fin 1024 → EReal) (s : Fin 1024) : EReal :=
  ∑ h : Fin 1024, q h * v s h

/-- The row's largest score: the fold of `max` from `⊥` over the 1024 scores. -/
def rowMax (q : Fin 1024 → EReal) (v : Fin 1024 → Fin 1024 → EReal) : EReal :=
  (Finset.univ : Finset (Fin 1024)).fold max ⊥ (score q v)

/-- The exponential of a score shifted by the row's largest. -/
def weight (q : Fin 1024 → EReal) (v : Fin 1024 → Fin 1024 → EReal) (s : Fin 1024) : EReal :=
  Ideal.exp (score q v s - rowMax q v)

/-- The sum of the row's shifted exponentials. -/
def rowSum (q : Fin 1024 → EReal) (v : Fin 1024 → Fin 1024 → EReal) : EReal :=
  ∑ s : Fin 1024, weight q v s

/-- The softmax weight the query row gives value row `s`. -/
def attn (q : Fin 1024 → EReal) (v : Fin 1024 → Fin 1024 → EReal) (s : Fin 1024) : EReal :=
  Ideal.div (weight q v s) (rowSum q v)

/-- Feature `h` of the weighted sum of the value rows. -/
def out (q : Fin 1024 → EReal) (v : Fin 1024 → Fin 1024 → EReal) (h : Fin 1024) : EReal :=
  ∑ s : Fin 1024, attn q v s * v s h

/-- The f32 pattern of `-∞` denotes the bottom of the extended reals, the neutral element of `max`. -/
theorem negInf : Ideal.ofBits .f32 0xFF800000#32 = (⊥ : EReal) := by simp [Ideal.ofBits, Ideal.ieee]

/-- The shape of the two arguments and the two results. -/
abbrev Arr : Shape := ⟨3, ![16, 1024, 1024]⟩

/-- Query row `t` of batch `n`. -/
def queryRow (Q : Arr.Idx → EReal) (n : Fin 16) (t : Fin 1024) : Fin 1024 → EReal := fun h => Q (ix3 n t h)

/-- The value matrix of batch `n`. -/
def valueMat (V : Arr.Idx → EReal) (n : Fin 16) : Fin 1024 → Fin 1024 → EReal := fun s h => V (ix3 n s h)

/-- The attention weights as one array: entry (n, t, s) is the weight query row (n, t) gives value row s of batch n. -/
def attnArr (Q V : Arr.Idx → EReal) : Arr.Idx → EReal :=
  fun i => attn (queryRow Q (i 0) (i 1)) (valueMat V (i 0)) (i 2)

/-- The attention output as one array: entry (n, t, h) is feature h of query row (n, t)'s weighted sum of batch n's value rows. -/
def outArr (Q V : Arr.Idx → EReal) : Arr.Idx → EReal :=
  fun i => out (queryRow Q (i 0) (i 1)) (valueMat V (i 0)) (i 2)

theorem attnArr_ix3 (Q V : Arr.Idx → EReal) (n : Fin 16) (t s : Fin 1024) :
    attnArr Q V (ix3 n t s) = attn (queryRow Q n t) (valueMat V n) s := rfl

theorem outArr_ix3 (Q V : Arr.Idx → EReal) (n : Fin 16) (t h : Fin 1024) :
    outArr Q V (ix3 n t h) = out (queryRow Q n t) (valueMat V n) h := rfl

end Cert.AttentionRow

end
-- ==== Proof.ReferenceRow.lean ====
import proofs.«148088_j12713103196953_2_alg».proof.Proof.Gen.ReferenceIdeal.Read
import proofs.«148088_j12713103196953_2_alg».proof.Proof.AttentionRow
import Idealize.ShloMosaic.PureOps.Reduce

/-!
# The reference's two results are the attention arrays

Read one operation at a time at an index (n, t, ·), the reference's stages are the terms of one attention row:
its batched dot product is `score`; its maximum over the last axis, taken from `-∞` and then joined with `-∞`
once more, is `rowMax` (`max ⊥ x = x`); the exponential of the difference is `weight`; its sum over the last axis,
taken from `0`, is `rowSum`; the quotient is `attn`; and the second batched dot product is `out`.
-/

noncomputable section

open scoped BigOperators

namespace Cert.ReferenceRow

open Cert.ReferenceIdeal Cert.ReferenceIdeal.Gen Cert.ReferenceIdeal.Read Cert.AttentionRow
open Idealize.ShloMosaic Idealize.ShloMosaic.ValueIdx

variable (Q V : (⟨S16x1024x1024, .f32⟩ : BufTy).Contents (Elt Ideal))

/-! ## The first dot product: the scores -/

theorem lidx_scores (n : Fin 16) (t s k : Fin 1024) : lidx_main_v0 (ix3 n t s) k = ix3 n t k :=
  funext fun a => Fin.ext (by match a with | ⟨0, _⟩ => rfl | ⟨1, _⟩ => rfl | ⟨2, _⟩ => rfl)

theorem ridx_scores (n : Fin 16) (t s k : Fin 1024) : ridx_main_v0 (ix3 n t s) k = ix3 n s k :=
  funext fun a => Fin.ext (by match a with | ⟨0, _⟩ => rfl | ⟨1, _⟩ => rfl | ⟨2, _⟩ => rfl)

/-- The batched dot product at (n, t, s) is query row (n, t)'s score against value row s of batch n. -/
theorem scores_at (n : Fin 16) (t s : Fin 1024) :
    val_main_v0 (F := Ideal) Q V (ix3 n t s) = score (queryRow Q n t) (valueMat V n) s := by
  rw [val_main_v0_apply]
  exact Finset.sum_congr rfl fun k _ => by rw [lidx_scores, ridx_scores]; rfl

/-! ## The maximum over the last axis -/

/-- The last axis of a [16, 1024, 1024] array can be dropped. -/
theorem dropLast : S16x1024x1024.Reduces [2] S16x1024 := by decide

/-- Putting coordinate `k` back on the last axis over (n, t) gives (n, t, k). -/
theorem lift_at (n : Fin 16) (t k : Fin 1024) : dropLast.lift (ix2 n t) k = ix3 n t k :=
  funext fun a => Fin.ext (by match a with | ⟨0, _⟩ => rfl | ⟨1, _⟩ => rfl | ⟨2, _⟩ => rfl)

/-- The reduction by `max` from `-∞` over the last axis is the row's largest score. -/
theorem rowMax_at (n : Fin 16) (t : Fin 1024) :
    val_main_v1 (F := Ideal) Q V (ix2 n t) = rowMax (queryRow Q n t) (valueMat V n) := by
  unfold val_main_v1
  refine (Host.reduce_eq_fold_single (FloatOps.maximumf (F := Ideal) (φ := .f32)) (val_main_v0 (F := Ideal) Q V) (val_main_cst (F := Ideal))
    reducesTo_S16x1024x1024_S16x1024_d2 dropLast h_S_ (ix2 n t)).trans ?_
  show (Finset.univ : Finset (Fin 1024)).fold max (Ideal.ofBits .f32 0xFF800000#32)
      (fun k : Fin 1024 => val_main_v0 (F := Ideal) Q V (dropLast.lift (ix2 n t) k)) = _
  rw [negInf]
  unfold rowMax
  refine congrArg (fun f : Fin 1024 → EReal => (Finset.univ : Finset (Fin 1024)).fold max ⊥ f) (funext fun k => ?_)
  rw [lift_at, scores_at]

/-- Joined with `-∞` once more, and laid out as a column and across the row, it is still the row's largest score. -/
theorem rowMax_bcast_at (n : Fin 16) (t s : Fin 1024) :
    val_main_v5 (F := Ideal) Q V (ix3 n t s) = rowMax (queryRow Q n t) (valueMat V n) := by
  rw [val_main_v5_apply, val_main_v4_apply, val_main_v3_apply, val_main_v2_apply, val_main_cst_0_apply]
  have e : idx_main_v4 (idx_main_v5 (ix3 n t s)) = ix2 n t :=
    funext fun a => Fin.ext (by match a with | ⟨0, _⟩ => rfl | ⟨1, _⟩ => rfl)
  rw [e, rowMax_at]
  show max (Ideal.ofBits .f32 0xFF800000#32) _ = _
  rw [negInf]
  exact max_bot_left _

/-! ## The shifted exponentials, their sum, and the quotient -/

theorem weight_at (n : Fin 16) (t s : Fin 1024) :
    val_main_v7 (F := Ideal) Q V (ix3 n t s) = weight (queryRow Q n t) (valueMat V n) s := by
  rw [val_main_v7_apply, val_main_v6_apply, scores_at, rowMax_bcast_at]
  rfl

theorem rowSum_at (n : Fin 16) (t : Fin 1024) :
    val_main_v8 (F := Ideal) Q V (ix2 n t) = rowSum (queryRow Q n t) (valueMat V n) := by
  rw [val_main_v8_apply, val_main_cst_1_apply]
  show Ideal.ofBits .f32 0x00000000#32 + _ = _
  rw [Ideal.ofBits_zero_f32, zero_add]
  exact Finset.sum_congr rfl fun k _ => by
    have e : idx_main_v8 (ix2 n t) k = ix3 n t k :=
      funext fun a => Fin.ext (by match a with | ⟨0, _⟩ => rfl | ⟨1, _⟩ => rfl | ⟨2, _⟩ => rfl)
    rw [e, weight_at]

theorem rowSum_bcast_at (n : Fin 16) (t s : Fin 1024) :
    val_main_v10 (F := Ideal) Q V (ix3 n t s) = rowSum (queryRow Q n t) (valueMat V n) := by
  rw [val_main_v10_apply, val_main_v9_apply]
  have e : idx_main_v9 (idx_main_v10 (ix3 n t s)) = ix2 n t :=
    funext fun a => Fin.ext (by match a with | ⟨0, _⟩ => rfl | ⟨1, _⟩ => rfl)
  rw [e, rowSum_at]

/-- The reference's second result at (n, t, s) is the softmax weight. -/
theorem attn_at (n : Fin 16) (t s : Fin 1024) :
    val_main_v11 (F := Ideal) Q V (ix3 n t s) = attn (queryRow Q n t) (valueMat V n) s := by
  rw [val_main_v11_apply, weight_at, rowSum_bcast_at]
  rfl

/-! ## The second dot product: the weighted sum of the value rows -/

theorem lidx_out (n : Fin 16) (t h k : Fin 1024) : lidx_main_v12 (ix3 n t h) k = ix3 n t k :=
  funext fun a => Fin.ext (by match a with | ⟨0, _⟩ => rfl | ⟨1, _⟩ => rfl | ⟨2, _⟩ => rfl)

theorem ridx_out (n : Fin 16) (t h k : Fin 1024) : ridx_main_v12 (ix3 n t h) k = ix3 n k h :=
  funext fun a => Fin.ext (by match a with | ⟨0, _⟩ => rfl | ⟨1, _⟩ => rfl | ⟨2, _⟩ => rfl)

/-- The reference's first result at (n, t, h) is feature h of the weighted sum. -/
theorem out_at (n : Fin 16) (t h : Fin 1024) :
    val_main_v12 (F := Ideal) Q V (ix3 n t h) = out (queryRow Q n t) (valueMat V n) h := by
  rw [val_main_v12_apply]
  exact Finset.sum_congr rfl fun k _ => by rw [lidx_out, ridx_out, attn_at]; rfl

/-! ## The two results as arrays -/

theorem attn_eq : val_main_v11 (F := Ideal) Q V = attnArr Q V := by
  funext i
  obtain ⟨n, t, s, rfl⟩ : ∃ (n : Fin 16) (t s : Fin 1024), i = ix3 n t s := ⟨i 0, i 1, i 2, eq_ix3 i⟩
  rw [attn_at, attnArr_ix3]

theorem out_eq : val_main_v12 (F := Ideal) Q V = outArr Q V := by
  funext i
  obtain ⟨n, t, h, rfl⟩ : ∃ (n : Fin 16) (t h : Fin 1024), i = ix3 n t h := ⟨i 0, i 1, i 2, eq_ix3 i⟩
  rw [out_at, outArr_ix3]

end Cert.ReferenceRow

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`.

Together: a per-row value kept as a column and spread across its row reads, everywhere in row `p`, the value of row `p`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.KernelRow.lean ====
import proofs.«148088_j12713103196953_2_alg».proof.Proof.Gen.KernelIdeal.Skeleton
import proofs.«148088_j12713103196953_2_alg».proof.Proof.AttentionRow
import proofs.«148088_j12713103196953_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

/-!
# The kernel's body computes attention rows of its loaded blocks

At one grid point the body loads a block of 256 query rows and the whole value matrix of one batch. Read at an index,
what it stores is an attention row: row `p` of the block of weights is `attn` of query row `p` against the loaded
value matrix, and row `p` of the block of outputs is `out` of the same. The product with the transposed values is
`score` (a block product into a zero accumulator is the plain sum over the contracted axis), the lane maximum from
`-∞` is `rowMax`, the lane sum from `0` is `rowSum`; narrowing to bf16 before the second product changes nothing
on the extended reals.
-/

noncomputable section

open scoped BigOperators

namespace Cert.KernelRow

open Cert.KernelIdeal Cert.KernelIdeal.Gen Cert.AttentionRow Cert.Keepdims
open Idealize.ShloMosaic Idealize.ShloMosaic.ValueIdx

/-- Row `p` of a loaded block of queries. -/
def blockQueryRow (P0 : Vec Ideal S1x256x1024 .f32) (p : Fin 256) : Fin 1024 → EReal :=
  fun h => P0 (ix3 (0 : Fin 1) p h)

/-- A loaded block of values, as a matrix. -/
def blockValueMat (P1 : Vec Ideal S1x1024x1024 .f32) : Fin 1024 → Fin 1024 → EReal :=
  fun s h => P1 (ix3 (0 : Fin 1) s h)

/-! ## The two block products read at an index -/

/-- The dimension numbers of the product with the transposed values: both operands contract their last axis. -/
abbrev scoreDims : DotDims S256x1024 S1024x1024 S256x1024 := dot_S256x1024_S1024x1024_S256x1024_1_1_0_0_n_n

/-- The dimension numbers of the product of the weights with the values: a plain matrix product. -/
abbrev mixDims : DotDims S256x1024 S1024x1024 S256x1024 := dot_S256x1024_S1024x1024_S256x1024_1_0_0_1_n_n

theorem scoreLhs_0 (i : S256x1024.Idx) (q : scoreDims.contr.Idx) : (scoreDims.lhsIdx i q 0).val = (i 0).val := by
  unfold DotDims.lhsIdx
  rw [dif_neg (show ¬(0 : Fin S256x1024.rank) ∈ scoreDims.lhsBatch by decide),
    dif_pos (show (0 : Fin S256x1024.rank) ∈ scoreDims.lhsNonContracting by decide)]
  rfl

theorem scoreLhs_1 (i : S256x1024.Idx) (q : scoreDims.contr.Idx) :
    (scoreDims.lhsIdx i q 1).val = (q ⟨0, by decide⟩).val :=
  scoreDims.lhsIdx_val_of_single rfl i q

theorem scoreRhs_0 (i : S256x1024.Idx) (q : scoreDims.contr.Idx) : (scoreDims.rhsIdx i q 0).val = (i 1).val := by
  unfold DotDims.rhsIdx
  rw [dif_neg (show ¬(0 : Fin S1024x1024.rank) ∈ scoreDims.rhsBatch by decide),
    dif_pos (show (0 : Fin S1024x1024.rank) ∈ scoreDims.rhsNonContracting by decide)]
  rfl

theorem scoreRhs_1 (i : S256x1024.Idx) (q : scoreDims.contr.Idx) :
    (scoreDims.rhsIdx i q 1).val = (q ⟨0, by decide⟩).val :=
  scoreDims.rhsIdx_val_of_single rfl i q

/-- The product with the transposed right operand, into zeros, at (p, s): the dot product of row p with row s. -/
theorem scoreDot_at (a : FVec Ideal S256x1024 .f32) (b : FVec Ideal S1024x1024 .f32) (p : Fin 256) (s : Fin 1024) :
    matmul scoreDims (some .fp32) a b (constant (F := Ideal) S256x1024 .f32 0x00000000#32) (ix2 p s)
      = ∑ k : Fin 1024, a (ix2 p k) * b (ix2 s k) := by
  refine (Ideal.matmul_constant_zero_apply scoreDims (some .fp32) a b (ix2 p s)).trans ?_
  rw [← Equiv.sum_comp (contrEquiv1 scoreDims 1024 rfl rfl).symm]
  refine Finset.sum_congr rfl fun k _ => ?_
  have hk := contrEquiv1_symm_val scoreDims 1024 rfl rfl k
  have el : scoreDims.lhsIdx (ix2 p s) ((contrEquiv1 scoreDims 1024 rfl rfl).symm k) = ix2 p k :=
    funext fun c => Fin.ext (by
      match c with
      | ⟨0, _⟩ => exact scoreLhs_0 _ _
      | ⟨1, _⟩ => exact (scoreLhs_1 _ _).trans hk)
  have er : scoreDims.rhsIdx (ix2 p s) ((contrEquiv1 scoreDims 1024 rfl rfl).symm k) = ix2 s k :=
    funext fun c => Fin.ext (by
      match c with
      | ⟨0, _⟩ => exact scoreRhs_0 _ _
      | ⟨1, _⟩ => exact (scoreRhs_1 _ _).trans hk)
  rw [el, er]

theorem mixLhs_0 (i : S256x1024.Idx) (q : mixDims.contr.Idx) : (mixDims.lhsIdx i q 0).val = (i 0).val := by
  unfold DotDims.lhsIdx
  rw [dif_neg (show ¬(0 : Fin S256x1024.rank) ∈ mixDims.lhsBatch by decide),
    dif_pos (show (0 : Fin S256x1024.rank) ∈ mixDims.lhsNonContracting by decide)]
  rfl

theorem mixLhs_1 (i : S256x1024.Idx) (q : mixDims.contr.Idx) :
    (mixDims.lhsIdx i q 1).val = (q ⟨0, by decide⟩).val :=
  mixDims.lhsIdx_val_of_single rfl i q

theorem mixRhs_0 (i : S256x1024.Idx) (q : mixDims.contr.Idx) :
    (mixDims.rhsIdx i q 0).val = (q ⟨0, by decide⟩).val :=
  mixDims.rhsIdx_val_of_single rfl i q

theorem mixRhs_1 (i : S256x1024.Idx) (q : mixDims.contr.Idx) : (mixDims.rhsIdx i q 1).val = (i 1).val := by
  unfold DotDims.rhsIdx
  rw [dif_neg (show ¬(1 : Fin S1024x1024.rank) ∈ mixDims.rhsBatch by decide),
    dif_pos (show (1 : Fin S1024x1024.rank) ∈ mixDims.rhsNonContracting by decide)]
  rfl

/-- The plain matrix product, into zeros, at (p, h): the sum over k of row p at k times column h at k. -/
theorem mixDot_at (a : FVec Ideal S256x1024 .bf16) (b : FVec Ideal S1024x1024 .bf16) (p : Fin 256) (h : Fin 1024) :
    matmul mixDims none a b (constant (F := Ideal) S256x1024 .f32 0x00000000#32) (ix2 p h)
      = ∑ k : Fin 1024, a (ix2 p k) * b (ix2 k h) := by
  refine (Ideal.matmul_constant_zero_apply mixDims none a b (ix2 p h)).trans ?_
  rw [← Equiv.sum_comp (contrEquiv1 mixDims 1024 rfl rfl).symm]
  refine Finset.sum_congr rfl fun k _ => ?_
  have hk := contrEquiv1_symm_val mixDims 1024 rfl rfl k
  have el : mixDims.lhsIdx (ix2 p h) ((contrEquiv1 mixDims 1024 rfl rfl).symm k) = ix2 p k :=
    funext fun c => Fin.ext (by
      match c with
      | ⟨0, _⟩ => exact mixLhs_0 _ _
      | ⟨1, _⟩ => exact (mixLhs_1 _ _).trans hk)
  have er : mixDims.rhsIdx (ix2 p h) ((contrEquiv1 mixDims 1024 rfl rfl).symm k) = ix2 k h :=
    funext fun c => Fin.ext (by
      match c with
      | ⟨0, _⟩ => exact (mixRhs_0 _ _).trans hk
      | ⟨1, _⟩ => exact mixRhs_1 _ _)
  rw [el, er]

/-! ## The two lane reductions and the keepdims column, read at an index -/

/-- The maximum over the lanes of row p, from `-∞`: the fold of `max` from `⊥` over the row's entries. -/
theorem laneMax_at (x : FVec Ideal S256x1024 .f32) (hφ : FKind.Formats .f32)
    (hacc : (0xFF800000#32 : BitVec FTy.f32.bits) = FKind.maximumf.neutral .f32 hφ) (p : Fin 256) :
    multiReduction .maximumf [1] S256 x 0xFF800000#32 reduces_S256x1024_S256 hφ hacc (ix1 p)
      = (Finset.univ : Finset (Fin 1024)).fold max ⊥ (fun k => x (ix2 p k)) := by
  refine (Ideal.multiReduction_maximumf_single x 0xFF800000#32 reduces_S256x1024_S256 hφ hacc (ix1 p)).trans ?_
  show (Finset.univ : Finset (Fin 1024)).fold max (Ideal.ofBits .f32 0xFF800000#32)
      (fun k : Fin 1024 => x (reduces_S256x1024_S256.lift (ix1 p) k)) = _
  rw [negInf]
  refine congrArg (fun f : Fin 1024 → EReal => (Finset.univ : Finset (Fin 1024)).fold max ⊥ f) (funext fun k => ?_)
  exact congrArg x (funext fun c => Fin.ext (by match c with | ⟨0, _⟩ => rfl | ⟨1, _⟩ => rfl))

/-- The sum over the lanes of row p, from `0`. -/
theorem laneSum_at (x : FVec Ideal S256x1024 .f32) (hφ : FKind.Formats .f32)
    (hacc : (0x00000000#32 : BitVec FTy.f32.bits) = FKind.add.neutral .f32 hφ) (p : Fin 256) :
    multiReduction .add [1] S256 x 0x00000000#32 reduces_S256x1024_S256 hφ hacc (ix1 p)
      = ∑ k : Fin 1024, x (ix2 p k) := by
  refine (Ideal.multiReduction_add_single x 0x00000000#32 reduces_S256x1024_S256 hφ hacc (ix1 p)).trans ?_
  show ∑ k : Fin 1024, x (reduces_S256x1024_S256.lift (ix1 p) k) = _
  exact Finset.sum_congr rfl fun k _ =>
    congrArg x (funext fun c => Fin.ext (by match c with | ⟨0, _⟩ => rfl | ⟨1, _⟩ => rfl))

/-- A per-row value laid out as a column and spread across the row reads, at (p, s), the value of row p. -/
theorem column_at (v : FVec Ideal S256 .f32) (p : Fin 256) (s : Fin 1024) :
    broadcastTo S256x1024 (shapeCast S256x1 v shapeCasts_S256_S256x1) broadcasts_S256x1_S256x1024 (ix2 p s)
      = v (ix1 p) :=
  (broadcastTo_a1_ab_apply _ broadcasts_S256x1_S256x1024 p s).trans
    (shapeCast_a_a1_apply v shapeCasts_S256_S256x1 p 0)

/-! ## The body's values, stage by stage -/

variable (P0 : Vec Ideal S1x256x1024 .f32) (P1 : Vec Ideal S1x1024x1024 .f32)

/-- The loaded values with their leading unit axis dropped, at (s, h). -/
theorem values_at (s h : Fin 1024) : k0_pay1 (F := Ideal) P1 (ix2 s h) = blockValueMat P1 s h :=
  shapeCast_1ab_ab_apply P1 shapeCasts_S1x1024x1024_S1024x1024 s h

/-- The block of scores. -/
def blockScores : FVec Ideal S256x1024 .f32 :=
  matmul scoreDims (some .fp32) (shapeCast S256x1024 P0 shapeCasts_S1x256x1024_S256x1024 : FVec Ideal S256x1024 .f32)
    (k0_pay1 (F := Ideal) P1) (constant (F := Ideal) S256x1024 .f32 0x00000000#32)

/-- The largest score of each row of the block. -/
def blockMax : FVec Ideal S256 .f32 :=
  multiReduction .maximumf [1] S256 (blockScores P0 P1) 0xFF800000#32 reduces_S256x1024_S256 (.inl rfl) rfl

/-- The block of shifted exponentials. -/
def blockWeights : FVec Ideal S256x1024 .f32 :=
  exp (subf (blockScores P0 P1)
    (broadcastTo S256x1024 (shapeCast S256x1 (blockMax P0 P1) shapeCasts_S256_S256x1) broadcasts_S256x1_S256x1024))

/-- The sum of each row of shifted exponentials. -/
def blockSums : FVec Ideal S256 .f32 :=
  multiReduction .add [1] S256 (blockWeights P0 P1) 0x00000000#32 reduces_S256x1024_S256 (.inl rfl) rfl

/-- The body's block of weights is the quotient of the shifted exponentials by their row sums. -/
theorem weights_eq : k0_pay2 (F := Ideal) P0 P1
    = divf (blockWeights P0 P1)
        (broadcastTo S256x1024 (shapeCast S256x1 (blockSums P0 P1) shapeCasts_S256_S256x1) broadcasts_S256x1_S256x1024) :=
  rfl

theorem blockScores_at (p : Fin 256) (s : Fin 1024) :
    blockScores P0 P1 (ix2 p s) = score (blockQueryRow P0 p) (blockValueMat P1) s := by
  unfold blockScores
  refine (scoreDot_at _ _ p s).trans ?_
  refine Finset.sum_congr rfl fun k _ => ?_
  rw [values_at]
  exact congrArg (· * blockValueMat P1 s k) (shapeCast_1ab_ab_apply P0 shapeCasts_S1x256x1024_S256x1024 p k)

theorem blockMax_at (p : Fin 256) : blockMax P0 P1 (ix1 p) = rowMax (blockQueryRow P0 p) (blockValueMat P1) := by
  unfold blockMax
  refine (laneMax_at (blockScores P0 P1) (.inl rfl) rfl p).trans ?_
  unfold rowMax
  exact congrArg (fun f : Fin 1024 → EReal => (Finset.univ : Finset (Fin 1024)).fold max ⊥ f)
    (funext fun k => blockScores_at P0 P1 p k)

theorem blockWeights_at (p : Fin 256) (s : Fin 1024) :
    blockWeights P0 P1 (ix2 p s) = weight (blockQueryRow P0 p) (blockValueMat P1) s := by
  show Ideal.exp (blockScores P0 P1 (ix2 p s)
    - broadcastTo S256x1024 (shapeCast S256x1 (blockMax P0 P1) shapeCasts_S256_S256x1) broadcasts_S256x1_S256x1024 (ix2 p s)) = _
  rw [blockScores_at, column_at, blockMax_at]
  rfl

theorem blockSums_at (p : Fin 256) : blockSums P0 P1 (ix1 p) = rowSum (blockQueryRow P0 p) (blockValueMat P1) := by
  unfold blockSums
  refine (laneSum_at (blockWeights P0 P1) (.inl rfl) rfl p).trans ?_
  exact Finset.sum_congr rfl fun k _ => blockWeights_at P0 P1 p k

/-- Row p of the body's block of weights is the attention row of query row p against the loaded values. -/
theorem attn_at (p : Fin 256) (s : Fin 1024) :
    k0_pay2 (F := Ideal) P0 P1 (ix2 p s) = attn (blockQueryRow P0 p) (blockValueMat P1) s := by
  rw [weights_eq]
  show Ideal.div (blockWeights P0 P1 (ix2 p s))
    (broadcastTo S256x1024 (shapeCast S256x1 (blockSums P0 P1) shapeCasts_S256_S256x1) broadcasts_S256x1_S256x1024 (ix2 p s)) = _
  rw [blockWeights_at, column_at, blockSums_at]
  rfl

/-! ## The two stored blocks -/

/-- The stored block of weights, at any index of the block. -/
theorem storedAttn_at (y : S1x256x1024.Idx) :
    k0_pay3 (F := Ideal) P0 P1 y = attn (blockQueryRow P0 (y 1)) (blockValueMat P1) (y 2) := by
  obtain ⟨u, p, s, rfl⟩ : ∃ (u : Fin 1) (p : Fin 256) (s : Fin 1024), y = ix3 u p s := ⟨y 0, y 1, y 2, eq_ix3 y⟩
  show shapeCast S1x256x1024 (k0_pay2 (F := Ideal) P0 P1) shapeCasts_S256x1024_S1x256x1024 (ix3 u p s) = _
  refine (shapeCast_ab_1ab_apply _ shapeCasts_S256x1024_S1x256x1024 u p s).trans ?_
  exact attn_at P0 P1 p s

/-- The body's block of outputs is the product of the weights with the values, both narrowed to bf16. -/
theorem outputs_eq : k0_pay4 (F := Ideal) P0 P1
    = shapeCast S1x256x1024
        (matmul mixDims none (truncf .bf16 (k0_pay2 (F := Ideal) P0 P1) bitsLt_bf16_f32)
          (truncf .bf16 (k0_pay1 (F := Ideal) P1) bitsLt_bf16_f32) (constant (F := Ideal) S256x1024 .f32 0x00000000#32))
        shapeCasts_S256x1024_S1x256x1024 :=
  rfl

/-- The stored block of outputs, at any index of the block. -/
theorem storedOut_at (y : S1x256x1024.Idx) :
    k0_pay4 (F := Ideal) P0 P1 y = out (blockQueryRow P0 (y 1)) (blockValueMat P1) (y 2) := by
  obtain ⟨u, p, h, rfl⟩ : ∃ (u : Fin 1) (p : Fin 256) (h : Fin 1024), y = ix3 u p h := ⟨y 0, y 1, y 2, eq_ix3 y⟩
  rw [outputs_eq]
  refine (shapeCast_ab_1ab_apply _ shapeCasts_S256x1024_S1x256x1024 u p h).trans ?_
  refine (mixDot_at _ _ p h).trans ?_
  refine Finset.sum_congr rfl fun k _ => ?_
  show k0_pay2 (F := Ideal) P0 P1 (ix2 p k) * k0_pay1 (F := Ideal) P1 (ix2 k h) = _
  rw [attn_at, values_at]

end Cert.KernelRow

end
-- ==== Proof.KernelArrays.lean ====
import proofs.«148088_j12713103196953_2_alg».proof.Proof.Gen.KernelIdeal.Value
import proofs.«148088_j12713103196953_2_alg».proof.Proof.KernelRow

/-!
# The kernel's two result arrays are the attention arrays

The grid has 16 × 4 points. Point (n, b) loads query rows 256·b … 256·b + 255 of batch n and the whole value matrix of
batch n, and writes back rows 256·b … 256·b + 255 of batch n of both results. Row p of what it writes is the attention
row of the loaded query row p against the loaded values, that is, of query row (n, 256·b + p) against the value matrix
of batch n: the block of the attention arrays at that place. The 64 blocks of each result tile it, so after the run
each result is the whole attention array.
-/

noncomputable section

namespace Cert.KernelArrays

open Cert.KernelIdeal Cert.KernelIdeal.Gen Cert.AttentionRow Cert.KernelRow
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros : (![0, 0, 0] : Fin 3 → Nat) = fun _ => 0 := funext fun a => by fin_cases a <;> rfl

/-- Where each window's block sits at a grid point: the query window at (n, b, 0) with n < 16 and b < 4, the value
    window at (n, 0, 0), and both result windows where the query window is. -/
theorem idx_facts : ∀ t : Fin cfg0.N,
    win0_0.index t (0 : Fin 3) < 16 ∧ win0_0.index t (1 : Fin 3) < 4 ∧ win0_0.index t (2 : Fin 3) = 0
    ∧ win0_1.index t (0 : Fin 3) = win0_0.index t (0 : Fin 3) ∧ win0_1.index t (1 : Fin 3) = 0
    ∧ win0_1.index t (2 : Fin 3) = 0
    ∧ win0_2.index t (0 : Fin 3) = win0_0.index t (0 : Fin 3) ∧ win0_2.index t (1 : Fin 3) = win0_0.index t (1 : Fin 3)
    ∧ win0_2.index t (2 : Fin 3) = 0
    ∧ win0_3.index t (0 : Fin 3) = win0_0.index t (0 : Fin 3) ∧ win0_3.index t (1 : Fin 3) = win0_0.index t (1 : Fin 3)
    ∧ win0_3.index t (2 : Fin 3) = 0 :=
  (by decide +kernel : ∀ t : Fin grid0.N, _)

/-- Every (batch, tile of 256 query rows) is some grid point's. -/
theorem idx_onto : ∀ (n : Fin 16) (b : Fin 4), ∃ t : Fin cfg0.N,
    win0_0.index t (0 : Fin 3) = n.val ∧ win0_0.index t (1 : Fin 3) = b.val :=
  (by decide +kernel : ∀ (n : Fin 16) (b : Fin 4), ∃ t : Fin grid0.N,
    win0_0.index t (0 : Fin 3) = n.val ∧ win0_0.index t (1 : Fin 3) = b.val)

/-- An attention row depends only on the query row, the value matrix and the place in the row. -/
theorem attn_congr {q q' : Fin 1024 → EReal} {v v' : Fin 1024 → Fin 1024 → EReal} {s s' : Fin 1024}
    (hq : q = q') (hv : v = v') (hs : s = s') : attn q v s = attn q' v' s' := by subst hq hv hs; rfl

theorem out_congr {q q' : Fin 1024 → EReal} {v v' : Fin 1024 → Fin 1024 → EReal} {h h' : Fin 1024}
    (hq : q = q') (hv : v = v') (hh : h = h') : out q v h = out q' v' h' := by subst hq hv hh; rfl

/-! ## What the loaded blocks are -/

/-- Row p of the query block loaded at a point is query row (n, 256·b + p) of the argument. -/
theorem queryBlock_row (c : Dev nD) (t : Fin cfg0.N) (n : Fin 16) (r : Fin 1024) (p : Fin 256)
    (hn : win0_0.index t (0 : Fin 3) = n.val) (hr : win0_0.index t (1 : Fin 3) * 256 + p.val = r.val)
    (h2 : win0_0.index t (2 : Fin 3) = 0) :
    blockQueryRow (iblk m c 0 t) p = queryRow (V m c main_arg0) n r := by
  funext h
  show V m c main_arg0 (((cfg0.win 0).blk t).view.emb (ix3 (0 : Fin 1) p h)) = V m c main_arg0 (ix3 n r h)
  refine congrArg (V m c main_arg0) (funext fun a => Fin.ext ?_)
  match a with
  | ⟨0, _⟩ => show win0_0.index t (0 : Fin 3) * 1 + 1 * 0 = n.val; omega
  | ⟨1, _⟩ => show win0_0.index t (1 : Fin 3) * 256 + 1 * p.val = r.val; omega
  | ⟨2, _⟩ => show win0_0.index t (2 : Fin 3) * 1024 + 1 * h.val = h.val; omega

/-- The value block loaded at a point is the value matrix of batch n. -/
theorem valueBlock_mat (c : Dev nD) (t : Fin cfg0.N) (n : Fin 16)
    (hn : win0_1.index t (0 : Fin 3) = n.val) (h1 : win0_1.index t (1 : Fin 3) = 0)
    (h2 : win0_1.index t (2 : Fin 3) = 0) :
    blockValueMat (iblk m c 1 t) = valueMat (V m c main_arg1) n := by
  funext s h
  show V m c main_arg1 (((cfg0.win 1).blk t).view.emb (ix3 (0 : Fin 1) s h)) = V m c main_arg1 (ix3 n s h)
  refine congrArg (V m c main_arg1) (funext fun a => Fin.ext ?_)
  match a with
  | ⟨0, _⟩ => show win0_1.index t (0 : Fin 3) * 1 + 1 * 0 = n.val; omega
  | ⟨1, _⟩ => show win0_1.index t (1 : Fin 3) * 1024 + 1 * s.val = s.val; omega
  | ⟨2, _⟩ => show win0_1.index t (2 : Fin 3) * 1024 + 1 * h.val = h.val; omega

/-! ## The weights -/

/-- What a point writes back to the array of weights is its block of `attnArr` of the arguments. -/
theorem flushedAttn_eq (c : Dev nD) (t : Fin cfg0.N) :
    (dats m 0 c).flushed 3 t
      = ((cfg0.win 3).blk t).view.read (Elt Ideal) (attnArr (V m c main_arg0) (V m c main_arg1)) := by
  rw [Cert.KernelIdeal.Value.flushed3]
  unfold out0_3
  rw [View.canon_unit_zero zeros]
  simp only [View.ld_unit_zero (S := S1x256x1024) zeros, View.ld_unit_zero (S := S1x1024x1024) zeros]
  obtain ⟨b0, b1, q2, v0, v1, v2, o0, o1, o2, a0, a1, a2⟩ := idx_facts t
  funext j
  have hj0 : (j 0).val < 1 := (j 0).isLt
  have hj1 : (j 1).val < 256 := (j 1).isLt
  have hj2 : (j 2).val < 1024 := (j 2).isLt
  show k0_pay3 (F := Ideal) (iblk m c 0 t) (iblk m c 1 t) j
    = attnArr (V m c main_arg0) (V m c main_arg1) (((cfg0.win 3).blk t).view.emb j)
  refine (storedAttn_at (iblk m c 0 t) (iblk m c 1 t) j).trans ?_
  have he : ((cfg0.win 3).blk t).view.emb j
      = ix3 (⟨win0_0.index t (0 : Fin 3), b0⟩ : Fin 16)
          (⟨win0_0.index t (1 : Fin 3) * 256 + (j 1).val, by omega⟩ : Fin 1024) (⟨(j 2).val, hj2⟩ : Fin 1024) := by
    funext a; apply Fin.ext
    match a with
    | ⟨0, _⟩ => show win0_3.index t (0 : Fin 3) * 1 + 1 * (j 0).val = win0_0.index t (0 : Fin 3); omega
    | ⟨1, _⟩ => show win0_3.index t (1 : Fin 3) * 256 + 1 * (j 1).val = win0_0.index t (1 : Fin 3) * 256 + (j 1).val; omega
    | ⟨2, _⟩ => show win0_3.index t (2 : Fin 3) * 1024 + 1 * (j 2).val = (j 2).val; omega
  rw [he, attnArr_ix3]
  exact attn_congr
    (queryBlock_row m c t ⟨win0_0.index t (0 : Fin 3), b0⟩ ⟨win0_0.index t (1 : Fin 3) * 256 + (j 1).val, by omega⟩
      (j 1) rfl rfl q2)
    (valueBlock_mat m c t ⟨win0_0.index t (0 : Fin 3), b0⟩ v0 v1 v2) rfl

/-- An index of the array of weights is in a point's block iff each coordinate is in the block's range on its axis. -/
theorem mem_attnBlk (t : Fin cfg0.N) (i : S16x1024x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v0_1).slice (win0_3.rect t)).set ↔ _
  rw [View.set_slice_whole, Rect.mem_set_unit]
  exact Iff.rfl

/-- The blocks of weights tile their array: index (n, r, s) is in the block of point (n, r / 256). -/
theorem attn_cover (i : S16x1024x1024.Idx) :
    ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 1024 := (i 2).isLt
  obtain ⟨t, ht0, ht1⟩ := idx_onto ⟨(i 0).val, hi0⟩ ⟨(i 1).val / 256, by omega⟩
  have ht0' : win0_0.index t (0 : Fin 3) = (i 0).val := ht0
  have ht1' : win0_0.index t (1 : Fin 3) = (i 1).val / 256 := ht1
  obtain ⟨b0, b1, q2, v0, v1, v2, o0, o1, o2, a0, a1, a2⟩ := idx_facts t
  refine ⟨t, flush0_3 t, ?_⟩
  rw [mem_attnBlk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- After the run the array of weights is `attnArr` of the arguments. -/
theorem finalAttn (c : Dev nD) :
    (dats m 0 c).arrAt 3 cfg0.N
      = attnArr (m ((c : Thread nD τ).loc main_arg0)) (m ((c : Thread nD τ).loc main_arg1)) :=
  (dats m 0 c).arrAt_eq_of_cover 3 _ (fun t _ => flushedAttn_eq m c t) attn_cover

/-! ## The outputs -/

/-- What a point writes back to the array of outputs is its block of `outArr` of the arguments. -/
theorem flushedOut_eq (c : Dev nD) (t : Fin cfg0.N) :
    (dats m 0 c).flushed 2 t
      = ((cfg0.win 2).blk t).view.read (Elt Ideal) (outArr (V m c main_arg0) (V m c main_arg1)) := by
  rw [Cert.KernelIdeal.Value.flushed2]
  unfold out0_2
  rw [View.canon_unit_zero zeros]
  simp only [View.ld_unit_zero (S := S1x256x1024) zeros, View.ld_unit_zero (S := S1x1024x1024) zeros]
  obtain ⟨b0, b1, q2, v0, v1, v2, o0, o1, o2, a0, a1, a2⟩ := idx_facts t
  funext j
  have hj0 : (j 0).val < 1 := (j 0).isLt
  have hj1 : (j 1).val < 256 := (j 1).isLt
  have hj2 : (j 2).val < 1024 := (j 2).isLt
  show k0_pay4 (F := Ideal) (iblk m c 0 t) (iblk m c 1 t) j
    = outArr (V m c main_arg0) (V m c main_arg1) (((cfg0.win 2).blk t).view.emb j)
  refine (storedOut_at (iblk m c 0 t) (iblk m c 1 t) j).trans ?_
  have he : ((cfg0.win 2).blk t).view.emb j
      = ix3 (⟨win0_0.index t (0 : Fin 3), b0⟩ : Fin 16)
          (⟨win0_0.index t (1 : Fin 3) * 256 + (j 1).val, by omega⟩ : Fin 1024) (⟨(j 2).val, hj2⟩ : Fin 1024) := by
    funext a; apply Fin.ext
    match a with
    | ⟨0, _⟩ => show win0_2.index t (0 : Fin 3) * 1 + 1 * (j 0).val = win0_0.index t (0 : Fin 3); omega
    | ⟨1, _⟩ => show win0_2.index t (1 : Fin 3) * 256 + 1 * (j 1).val = win0_0.index t (1 : Fin 3) * 256 + (j 1).val; omega
    | ⟨2, _⟩ => show win0_2.index t (2 : Fin 3) * 1024 + 1 * (j 2).val = (j 2).val; omega
  rw [he, outArr_ix3]
  exact out_congr
    (queryBlock_row m c t ⟨win0_0.index t (0 : Fin 3), b0⟩ ⟨win0_0.index t (1 : Fin 3) * 256 + (j 1).val, by omega⟩
      (j 1) rfl rfl q2)
    (valueBlock_mat m c t ⟨win0_0.index t (0 : Fin 3), b0⟩ v0 v1 v2) rfl

/-- An index of the array of outputs is in a point's block iff each coordinate is in the block's range on its axis. -/
theorem mem_outBlk (t : Fin cfg0.N) (i : S16x1024x1024.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v0_0).slice (win0_2.rect t)).set ↔ _
  rw [View.set_slice_whole, Rect.mem_set_unit]
  exact Iff.rfl

/-- The blocks of outputs tile their array: index (n, r, h) is in the block of point (n, r / 256). -/
theorem out_cover (i : S16x1024x1024.Idx) :
    ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 1024 := (i 2).isLt
  obtain ⟨t, ht0, ht1⟩ := idx_onto ⟨(i 0).val, hi0⟩ ⟨(i 1).val / 256, by omega⟩
  have ht0' : win0_0.index t (0 : Fin 3) = (i 0).val := ht0
  have ht1' : win0_0.index t (1 : Fin 3) = (i 1).val / 256 := ht1
  obtain ⟨b0, b1, q2, v0, v1, v2, o0, o1, o2, a0, a1, a2⟩ := idx_facts t
  refine ⟨t, flush0_2 t, ?_⟩
  rw [mem_outBlk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- After the run the array of outputs is `outArr` of the arguments. -/
theorem finalOut (c : Dev nD) :
    (dats m 0 c).arrAt 2 cfg0.N
      = outArr (m ((c : Thread nD τ).loc main_arg0)) (m ((c : Thread nD τ).loc main_arg1)) :=
  (dats m 0 c).arrAt_eq_of_cover 2 _ (fun t _ => flushedOut_eq m c t) out_cover

/-! ## The run -/

/-- Every weakly fair execution of the kernel's program ends with the two results at the attention arrays of the
    arguments, and the arguments unchanged. -/
theorem run : θ_run defs (onTc (τ := τ) (main (F := Ideal))) ⟨m, fun _ => 0, ρ⟩ fun r => ∀ c : Dev nD,
      r.2.mem ((c : Thread nD τ).loc main_v0_0)
        = outArr (m ((c : Thread nD τ).loc main_arg0)) (m ((c : Thread nD τ).loc main_arg1))
      ∧ r.2.mem ((c : Thread nD τ).loc main_v0_1)
        = attnArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (finalOut m c), (h c).2.1.trans (finalAttn m c), (h c).2.2⟩)
    (Cert.KernelIdeal.Value.run_blocks m ρ)

end Cert.KernelArrays

end
-- ==== Proof.lean ====
/-
  Unfused dot-product attention on f32[16, 1024, 1024] queries and values, two results: the attention weights and the
  attention output.

  The kernel works on one tile of 256 query rows of one batch at a time, against that batch's whole value matrix:
  the scores are the tile's product with the transposed values; each row is shifted by its largest score (a lane
  maximum taken from -∞), exponentiated, and divided by the row's sum of exponentials; the output is the product of
  these weights with the values, both narrowed to bf16 first. The reference does the same on whole arrays: a batched
  dot product, `exp (scores - max)` with the maximum over the last axis (taken from -∞ and joined with -∞ once more),
  the quotient by the sum over the last axis, and a second batched dot product.

  On the extended reals both are, at every (batch, query row), ONE attention row (Proof/AttentionRow.lean): a change
  of float format is the identity, a block product into zeros and a batched dot product are the same finite sum, a lane
  reduction and a reduction over the last axis fold the same 1024 terms, and `max ⊥ x = x`. No step moves a factor
  across a sum or cancels anything, so the inputs' finiteness is never used. No operation of the kernel is rewritten
  in its idealization: it is the kernel's own text read at the ideal instance, and there is nothing to preserve.

  Proof/ReferenceRow.lean reads the reference's stages down to the attention row; Proof/KernelRow.lean does the same
  for the kernel body's two stored blocks; Proof/KernelArrays.lean puts the 64 blocks of each result together into the
  whole array; below, the two runs are set side by side.
-/
import proofs.«148088_j12713103196953_2_alg».proof.Defs
import proofs.«148088_j12713103196953_2_alg».proof.Proof.Gen.Kernel
import proofs.«148088_j12713103196953_2_alg».proof.Proof.Gen.Kernel.Skeleton
import proofs.«148088_j12713103196953_2_alg».proof.Proof.Gen.Kernel.Launch
import proofs.«148088_j12713103196953_2_alg».proof.Proof.Gen.Kernel.Points
import proofs.«148088_j12713103196953_2_alg».proof.Proof.Gen.Kernel.Frame
import proofs.«148088_j12713103196953_2_alg».proof.Proof.Gen.KernelIdeal
import proofs.«148088_j12713103196953_2_alg».proof.Proof.Gen.KernelIdeal.Skeleton
import proofs.«148088_j12713103196953_2_alg».proof.Proof.Gen.KernelIdeal.Launch
import proofs.«148088_j12713103196953_2_alg».proof.Proof.Gen.KernelIdeal.Points
import proofs.«148088_j12713103196953_2_alg».proof.Proof.Gen.KernelIdeal.Frame
import proofs.«148088_j12713103196953_2_alg».proof.Proof.Gen.ReferenceIdeal
import proofs.«148088_j12713103196953_2_alg».proof.Proof.Gen.Pre_finite_inputs
import proofs.«148088_j12713103196953_2_alg».proof.Proof.Gen.KernelIdeal.Value
import proofs.«148088_j12713103196953_2_alg».proof.Proof.Gen.ReferenceIdeal.Run
import proofs.«148088_j12713103196953_2_alg».proof.Proof.Gen.ReferenceIdeal.Read
import proofs.«148088_j12713103196953_2_alg».proof.Proof.ReferenceRow
import proofs.«148088_j12713103196953_2_alg».proof.Proof.KernelArrays
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the two results forgotten. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- From memories agreeing on the two arguments, the kernel's run ends with its results at `outArr` and `attnArr`
    of the arguments, and the reference's run with its results at the terms that are those same two arrays. -/
theorem algebraic : Cert.algebraic_KernelIdeal_ReferenceIdeal := by
  intro m ρ m' ρ' _ hagree
  refine ⟨_, _, Cert.KernelArrays.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v12_eq, Cert.ReferenceRow.out_eq, (hagree c).1, (hagree c).2]
  · rw [Cert.ReferenceIdeal.Read.val_main_v11_eq, Cert.ReferenceRow.attn_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
